-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x12288x16 : Shape := ⟨4, ![8, 4, 12288, 16]⟩
abbrev S1x4 : Shape := ⟨2, ![1, 4]⟩
abbrev S12288x9 : Shape := ⟨2, ![12288, 9]⟩
abbrev S144x1024 : Shape := ⟨2, ![144, 1024]⟩
abbrev S1024 : Shape := ⟨1, ![1024]⟩
abbrev S_ : Shape := ⟨0, ![]⟩

class Facts : Prop where
  bcast_S_S8x4x12288x16 : S_.BroadcastsInDim S8x4x12288x16 (![] : Fin 0 → Fin S8x4x12288x16.rank)
  reducesTo_S8x4x12288x16_S_d0_1_2_3 : S8x4x12288x16.ReducesTo [0, 1, 2, 3] S_
  h_S_ : 0 < S_.numel
  bcast_S_S144x1024 : S_.BroadcastsInDim S144x1024 (![] : Fin 0 → Fin S144x1024.rank)
  reducesTo_S144x1024_S_d0_1 : S144x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4x12288x16 .f32) (main_arg1 : IVec S1x4 32) (main_arg2 : IVec S12288x9 32) (main_arg3 : FVec F S144x1024 .f32) (main_arg4 : FVec F S1024 .f32) : IVec S_ 1 :=
  let main_v0 : FVec F S8x4x12288x16 .f32 := Host.absf main_arg0
  let main_cst : FVec F S_ .f32 := constant S_ .f32 0x7F800000#32
  let main_v1 : FVec F S8x4x12288x16 .f32 := broadcastInDim S8x4x12288x16 ![] bcast_S_S8x4x12288x16 main_cst
  let main_v2 : IVec S8x4x12288x16 1 := cmpf .olt main_v0 main_v1
  let main_c : IVec S_ 1 := constantI S_ 1 1#1
  let main_v3 : IVec S_ 1 := (fun x v => Host.reduce IntOp.andi x v reducesTo_S8x4x12288x16_S_d0_1_2_3 h_S_) main_v2 main_c
  let main_v4 : FVec F S144x1024 .f32 := Host.absf main_arg3
  let main_cst_0 : FVec F S_ .f32 := constant S_ .f32 0x7F800000#32
  let main_v5 : FVec F S144x1024 .f32 := broadcastInDim S144x1024 ![] bcast_S_S144x1024 main_cst_0
  let main_v6 : IVec S144x1024 1 := cmpf .olt main_v4 main_v5
  let main_c_1 : IVec S_ 1 := constantI S_ 1 1#1
  let main_v7 : IVec S_ 1 := (fun x v => Host.reduce IntOp.andi x v reducesTo_S144x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4x12288x16 : Shape := ⟨4, ![8, 4, 12288, 16]⟩
abbrev S1x4 : Shape := ⟨2, ![1, 4]⟩
abbrev S12288x9 : Shape := ⟨2, ![12288, 9]⟩
abbrev S144x1024 : Shape := ⟨2, ![144, 1024]⟩
abbrev S1024 : Shape := ⟨1, ![1024]⟩
abbrev S_ : Shape := ⟨0, ![]⟩
abbrev S1x4x1 : Shape := ⟨3, ![1, 4, 1]⟩
abbrev S1x4x4x12288x16 : Shape := ⟨5, ![1, 4, 4, 12288, 16]⟩
abbrev S12288x9x1 : Shape := ⟨3, ![12288, 9, 1]⟩
abbrev S1x4x4x12288x9x16 : Shape := ⟨6, ![1, 4, 4, 12288, 9, 16]⟩
abbrev S196608x144 : Shape := ⟨2, ![196608, 144]⟩
abbrev S1x1024 : Shape := ⟨2, ![1, 1024]⟩
abbrev S196608x1024 : Shape := ⟨2, ![196608, 1024]⟩
abbrev S2048x144 : Shape := ⟨2, ![2048, 144]⟩
abbrev S2048x1024 : Shape := ⟨2, ![2048, 1024]⟩
abbrev S1x4x4x196608x64 : Shape := ⟨5, ![1, 4, 4, 196608, 64]⟩

abbrev nBuf : Space → Nat
  | .hbm => 29
  | .vmem => 6
  | .smem => 0
  | _ => 0

abbrev bufTy : (tb : Table) → Fin (tcTables nBuf tb) → BufTy
  | .hbm, ⟨0, _⟩ => ⟨S8x4x12288x16, .f32⟩
  | .hbm, ⟨1, _⟩ => ⟨S1x4, .i32⟩
  | .hbm, ⟨2, _⟩ => ⟨S12288x9, .i32⟩
  | .hbm, ⟨3, _⟩ => ⟨S144x1024, .f32⟩
  | .hbm, ⟨4, _⟩ => ⟨S1024, .f32⟩
  | .hbm, ⟨5, _⟩ => ⟨S8x4x12288x16, .bf16⟩
  | .hbm, ⟨6, _⟩ => ⟨S_, .i32⟩
  | .hbm, ⟨7, _⟩ => ⟨S1x4, .i32⟩
  | .hbm, ⟨8, _⟩ => ⟨S1x4, .i1⟩
  | .hbm, ⟨9, _⟩ => ⟨S_, .i32⟩
  | .hbm, ⟨10, _⟩ => ⟨S1x4, .i32⟩
  | .hbm, ⟨11, _⟩ => ⟨S1x4, .i32⟩
  | .hbm, ⟨12, _⟩ => ⟨S1x4, .i32⟩
  | .hbm, ⟨13, _⟩ => ⟨S1x4x1, .i32⟩
  | .hbm, ⟨14, _⟩ => ⟨S1x4x4x12288x16, .bf16⟩
  | .hbm, ⟨15, _⟩ => ⟨S_, .i32⟩
  | .hbm, ⟨16, _⟩ => ⟨S12288x9, .i32⟩
  | .hbm, ⟨17, _⟩ => ⟨S12288x9, .i1⟩
  | .hbm, ⟨18, _⟩ => ⟨S_, .i32⟩
  | .hbm, ⟨19, _⟩ => ⟨S12288x9, .i32⟩
  | .hbm, ⟨20, _⟩ => ⟨S12288x9, .i32⟩
  | .hbm, ⟨21, _⟩ => ⟨S12288x9, .i32⟩
  | .hbm, ⟨22, _⟩ => ⟨S12288x9x1, .i32⟩
  | .hbm, ⟨23, _⟩ => ⟨S1x4x4x12288x9x16, .bf16⟩
  | .hbm, ⟨24, _⟩ => ⟨S196608x144, .bf16⟩
  | .hbm, ⟨25, _⟩ => ⟨S144x1024, .bf16⟩
  | .hbm, ⟨26, _⟩ => ⟨S1x1024, .f32⟩
  | .hbm, ⟨27, _⟩ => ⟨S196608x1024, .f32⟩
  | .hbm, ⟨28, _⟩ => ⟨S1x4x4x196608x64, .f32⟩
  | .local _ .vmem, ⟨0, _⟩ => ⟨S2048x144, .bf16⟩
  | .local _ .vmem, ⟨1, _⟩ => ⟨S2048x144, .bf16⟩
  | .local _ .vmem, ⟨2, _⟩ => ⟨S144x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S8x4x12288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S1x4 : S_.BroadcastsInDim S1x4 (![] : Fin 0 → Fin S1x4.rank)
  bcast_S1x4_S1x4x1_0_1 : S1x4.BroadcastsInDim S1x4x1 (![0, 1] : Fin 2 → Fin S1x4x1.rank)
  bcast_S_S12288x9 : S_.BroadcastsInDim S12288x9 (![] : Fin 0 → Fin S12288x9.rank)
  bcast_S12288x9_S12288x9x1_0_1 : S12288x9.BroadcastsInDim S12288x9x1 (![0, 1] : Fin 2 → Fin S12288x9x1.rank)
  shapeCasts_S1x4x4x12288x9x16_S196608x144 : S1x4x4x12288x9x16.ShapeCasts S196608x144
  shapeCasts_S1024_S1x1024 : S1024.ShapeCasts S1x1024
  inb_S2048x144_S2048x144_0_0 : ∀ a, (![0, 0] : Fin 2 → Nat) a + S2048x144.size a ≤ S2048x144.size a
  h_S2048x144 : 0 < S2048x144.numel
  shapeCasts_S2048x144_S2048x144 : S2048x144.ShapeCasts S2048x144
  inb_S144x1024_S144x1024_0_0 : ∀ a, (![0, 0] : Fin 2 → Nat) a + S144x1024.size a ≤ S144x1024.size a
  h_S144x1024 : 0 < S144x1024.numel
  shapeCasts_S144x1024_S144x1024 : S144x1024.ShapeCasts S144x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S196608x1024_S1x4x4x196608x64 : S196608x1024.ShapeCasts S1x4x4x196608x64
  gather_S8x4x12288x16_S1x4x1_S1x4x4x12288x16_234_0_n_n_0_2_141228816_wf : GatherDims.WF S8x4x12288x16 S1x4x1 S1x4x4x12288x16 [2, 3, 4] [0] [] [0] [] 2 ![1, 4, 12288, 16]
  gather_S1x4x4x12288x16_S12288x9x1_S1x4x4x12288x9x16_0125_3_n_n_3_2_144116_wf : GatherDims.WF S1x4x4x12288x16 S12288x9x1 S1x4x4x12288x9x16 [0, 1, 2, 5] [3] [] [3] [] 2 ![1, 4, 4, 1, 16]
  dot_S2048x144_S144x1024_S2048x1024_1_0_0_1_n_n_wf : DotDims.WF S2048x144 S144x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x144.size a ≤ S196608x144.size a
  hwx0_0 : ∀ i : grid0.Coords, EltTy.bits .bf16 = 32 ∨ (Rect.block (s := S196608x144) S2048x144.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S144x1024.size a ≤ S144x1024.size a
  hwx0_1 : ∀ i : grid0.Coords, EltTy.bits .bf16 = 32 ∨ (Rect.block (s := S144x1024) S144x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S196608x1024.size a
  hwx0_3 : ∀ i : grid0.Coords, EltTy.bits .f32 = 32 ∨ (Rect.block (s := S196608x1024) S2048x1024.size (cc0_transform_3 i) (hinb0_3 i)).WholeWords (EltTy.packing .f32)

variable [Facts₀]

def gather_S8x4x12288x16_S1x4x1_S1x4x4x12288x16_234_0_n_n_0_2_141228816 : GatherDims S8x4x12288x16 S1x4x1 S1x4x4x12288x16 where
  offsetDims := [2, 3, 4]
  collapsedSliceDims := [0]
  operandBatchingDims := []
  startIndicesBatchingDims := []
  startIndexMap := [0]
  indexVectorDim := 2
  sliceSizes := ![1, 4, 12288, 16]
  wf := gather_S8x4x12288x16_S1x4x1_S1x4x4x12288x16_234_0_n_n_0_2_141228816_wf
def gather_S1x4x4x12288x16_S12288x9x1_S1x4x4x12288x9x16_0125_3_n_n_3_2_144116 : GatherDims S1x4x4x12288x16 S12288x9x1 S1x4x4x12288x9x16 where
  offsetDims := [0, 1, 2, 5]
  collapsedSliceDims := [3]
  operandBatchingDims := []
  startIndicesBatchingDims := []
  startIndexMap := [3]
  indexVectorDim := 2
  sliceSizes := ![1, 4, 4, 1, 16]
  wf := gather_S1x4x4x12288x16_S12288x9x1_S1x4x4x12288x9x16_0125_3_n_n_3_2_144116_wf
def dot_S2048x144_S144x1024_S2048x1024_1_0_0_1_n_n : DotDims S2048x144 S144x1024 S2048x1024 where
  lhsContracting := [1]
  rhsContracting := [0]
  lhsNonContracting := [0]
  rhsNonContracting := [1]
  lhsBatch := []
  rhsBatch := []
  wf := dot_S2048x144_S144x1024_S2048x1024_1_0_0_1_n_n_wf

abbrev win0_0 : Pipeline.Window sig grid0 :=
  Pipeline.Window.ofSpec (Memref.whole main_v15) S2048x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S144x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4x12288x16 : Shape := ⟨4, ![8, 4, 12288, 16]⟩
abbrev S1x4 : Shape := ⟨2, ![1, 4]⟩
abbrev S12288x9 : Shape := ⟨2, ![12288, 9]⟩
abbrev S144x1024 : Shape := ⟨2, ![144, 1024]⟩
abbrev S1024 : Shape := ⟨1, ![1024]⟩
abbrev S_ : Shape := ⟨0, ![]⟩
abbrev S1x4x1 : Shape := ⟨3, ![1, 4, 1]⟩
abbrev S1x4x4x12288x16 : Shape := ⟨5, ![1, 4, 4, 12288, 16]⟩
abbrev S12288x9x1 : Shape := ⟨3, ![12288, 9, 1]⟩
abbrev S1x4x4x12288x9x16 : Shape := ⟨6, ![1, 4, 4, 12288, 9, 16]⟩
abbrev S1x4x4x12288x144 : Shape := ⟨5, ![1, 4, 4, 12288, 144]⟩
abbrev S1x4x4x12288x1024 : Shape := ⟨5, ![1, 4, 4, 12288, 1024]⟩
abbrev S1x1x1x1x1024 : Shape := ⟨5, ![1, 1, 1, 1, 1024]⟩
abbrev S1x4x4x196608x64 : Shape := ⟨5, ![1, 4, 4, 196608, 64]⟩

abbrev nBuf : Space → Nat
  | .hbm => 29
  | .vmem => 0
  | .smem => 0
  | _ => 0

abbrev bufTy : (tb : Table) → Fin (tcTables nBuf tb) → BufTy
  | .hbm, ⟨0, _⟩ => ⟨S8x4x12288x16, .f32⟩
  | .hbm, ⟨1, _⟩ => ⟨S1x4, .i32⟩
  | .hbm, ⟨2, _⟩ => ⟨S12288x9, .i32⟩
  | .hbm, ⟨3, _⟩ => ⟨S144x1024, .f32⟩
  | .hbm, ⟨4, _⟩ => ⟨S1024, .f32⟩
  | .hbm, ⟨5, _⟩ => ⟨S_, .i32⟩
  | .hbm, ⟨6, _⟩ => ⟨S1x4, .i32⟩
  | .hbm, ⟨7, _⟩ => ⟨S1x4, .i1⟩
  | .hbm, ⟨8, _⟩ => ⟨S_, .i32⟩
  | .hbm, ⟨9, _⟩ => ⟨S1x4, .i32⟩
  | .hbm, ⟨10, _⟩ => ⟨S1x4, .i32⟩
  | .hbm, ⟨11, _⟩ => ⟨S1x4, .i32⟩
  | .hbm, ⟨12, _⟩ => ⟨S1x4x1, .i32⟩
  | .hbm, ⟨13, _⟩ => ⟨S1x4x4x12288x16, .f32⟩
  | .hbm, ⟨14, _⟩ => ⟨S_, .i32⟩
  | .hbm, ⟨15, _⟩ => ⟨S12288x9, .i32⟩
  | .hbm, ⟨16, _⟩ => ⟨S12288x9, .i1⟩
  | .hbm, ⟨17, _⟩ => ⟨S_, .i32⟩
  | .hbm, ⟨18, _⟩ => ⟨S12288x9, .i32⟩
  | .hbm, ⟨19, _⟩ => ⟨S12288x9, .i32⟩
  | .hbm, ⟨20, _⟩ => ⟨S12288x9, .i32⟩
  | .hbm, ⟨21, _⟩ => ⟨S12288x9x1, .i32⟩
  | .hbm, ⟨22, _⟩ => ⟨S1x4x4x12288x9x16, .f32⟩
  | .hbm, ⟨23, _⟩ => ⟨S1x4x4x12288x144, .f32⟩
  | .hbm, ⟨24, _⟩ => ⟨S1x4x4x12288x1024, .f32⟩
  | .hbm, ⟨25, _⟩ => ⟨S1x1x1x1x1024, .f32⟩
  | .hbm, ⟨26, _⟩ => ⟨S1x4x4x12288x1024, .f32⟩
  | .hbm, ⟨27, _⟩ => ⟨S1x4x4x12288x1024, .f32⟩
  | .hbm, ⟨28, _⟩ => ⟨S1x4x4x196608x64, .f32⟩
  | _, _ => ⟨S8x4x12288x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S1x4 : S_.BroadcastsInDim S1x4 (![] : Fin 0 → Fin S1x4.rank)
  bcast_S1x4_S1x4x1_0_1 : S1x4.BroadcastsInDim S1x4x1 (![0, 1] : Fin 2 → Fin S1x4x1.rank)
  bcast_S_S12288x9 : S_.BroadcastsInDim S12288x9 (![] : Fin 0 → Fin S12288x9.rank)
  bcast_S12288x9_S12288x9x1_0_1 : S12288x9.BroadcastsInDim S12288x9x1 (![0, 1] : Fin 2 → Fin S12288x9x1.rank)
  shapeCasts_S1x4x4x12288x9x16_S1x4x4x12288x144 : S1x4x4x12288x9x16.ShapeCasts S1x4x4x12288x144
  bcast_S1024_S1x1x1x1x1024_4 : S1024.BroadcastsInDim S1x1x1x1x1024 (![4] : Fin 1 → Fin S1x1x1x1x1024.rank)
  bcast_S1x1x1x1x1024_S1x4x4x12288x1024_0_1_2_3_4 : S1x1x1x1x1024.BroadcastsInDim S1x4x4x12288x1024 (![0, 1, 2, 3, 4] : Fin 5 → Fin S1x4x4x12288x1024.rank)
  shapeCasts_S1x4x4x12288x1024_S1x4x4x196608x64 : S1x4x4x12288x1024.ShapeCasts S1x4x4x196608x64
  gather_S8x4x12288x16_S1x4x1_S1x4x4x12288x16_234_0_n_n_0_2_141228816_wf : GatherDims.WF S8x4x12288x16 S1x4x1 S1x4x4x12288x16 [2, 3, 4] [0] [] [0] [] 2 ![1, 4, 12288, 16]
  gather_S1x4x4x12288x16_S12288x9x1_S1x4x4x12288x9x16_0125_3_n_n_3_2_144116_wf : GatherDims.WF S1x4x4x12288x16 S12288x9x1 S1x4x4x12288x9x16 [0, 1, 2, 5] [3] [] [3] [] 2 ![1, 4, 4, 1, 16]
  dot_S1x4x4x12288x144_S144x1024_S1x4x4x12288x1024_4_0_0123_1_n_n_wf : DotDims.WF S1x4x4x12288x144 S144x1024 S1x4x4x12288x1024 [4] [0] [0, 1, 2, 3] [1] [] []

variable [Facts₀]

def gather_S8x4x12288x16_S1x4x1_S1x4x4x12288x16_234_0_n_n_0_2_141228816 : GatherDims S8x4x12288x16 S1x4x1 S1x4x4x12288x16 where
  offsetDims := [2, 3, 4]
  collapsedSliceDims := [0]
  operandBatchingDims := []
  startIndicesBatchingDims := []
  startIndexMap := [0]
  indexVectorDim := 2
  sliceSizes := ![1, 4, 12288, 16]
  wf := gather_S8x4x12288x16_S1x4x1_S1x4x4x12288x16_234_0_n_n_0_2_141228816_wf
def gather_S1x4x4x12288x16_S12288x9x1_S1x4x4x12288x9x16_0125_3_n_n_3_2_144116 : GatherDims S1x4x4x12288x16 S12288x9x1 S1x4x4x12288x9x16 where
  offsetDims := [0, 1, 2, 5]
  collapsedSliceDims := [3]
  operandBatchingDims := []
  startIndicesBatchingDims := []
  startIndexMap := [3]
  indexVectorDim := 2
  sliceSizes := ![1, 4, 4, 1, 16]
  wf := gather_S1x4x4x12288x16_S12288x9x1_S1x4x4x12288x9x16_0125_3_n_n_3_2_144116_wf
def dot_S1x4x4x12288x144_S144x1024_S1x4x4x12288x1024_4_0_0123_1_n_n : DotDims S1x4x4x12288x144 S144x1024 S1x4x4x12288x1024 where
  lhsContracting := [4]
  rhsContracting := [0]
  lhsNonContracting := [0, 1, 2, 3]
  rhsNonContracting := [1]
  lhsBatch := []
  rhsBatch := []
  wf := dot_S1x4x4x12288x144_S144x1024_S1x4x4x12288x1024_4_0_0123_1_n_n_wf

class Facts : Prop extends Facts₀ where

variable [Facts]
-- ==== Proof.Payload.lean ====
/-
  What the kernel body stores, at one entry of its block.

  The body loads a block `x` of 2048 rows of 144 features, the whole weight matrix `w` (144 × 1024) and the bias
  as a 1 × 1024 row `b`, and stores  x · w + b  — the product accumulated from zero, the bias row repeated down
  the 2048 rows.  Over the extended reals the zero accumulator adds nothing, so entry (p, q) of what is stored is

        Σ_{k < 144} x[p, k] · w[k, q]  +  b[0, q].
-/
import proofs.«158344_j24103356465172_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.BlockValue

open Cert.KernelIdeal Cert.KernelIdeal.Gen

/-- The left operand's index at output (j₀, j₁) and contraction index q keeps the output's row, -/
theorem lhs_row (j : S2048x1024.Idx) (q : dot_S2048x144_S144x1024_S2048x1024_1_0_0_1_n_n.contr.Idx) :
    (dot_S2048x144_S144x1024_S2048x1024_1_0_0_1_n_n.lhsIdx j q 0).val = (j 0).val := by
  unfold DotDims.lhsIdx
  rw [dif_neg (show ¬(0 : Fin S2048x144.rank) ∈ dot_S2048x144_S144x1024_S2048x1024_1_0_0_1_n_n.lhsBatch by decide),
    dif_pos (show (0 : Fin S2048x144.rank) ∈ dot_S2048x144_S144x1024_S2048x1024_1_0_0_1_n_n.lhsNonContracting by decide)]
  rfl
/-- and runs along the contracted feature axis; -/
theorem lhs_feature (j : S2048x1024.Idx) (q : dot_S2048x144_S144x1024_S2048x1024_1_0_0_1_n_n.contr.Idx) :
    (dot_S2048x144_S144x1024_S2048x1024_1_0_0_1_n_n.lhsIdx j q 1).val = (q ⟨0, by decide⟩).val :=
  dot_S2048x144_S144x1024_S2048x1024_1_0_0_1_n_n.lhsIdx_val_of_single rfl j q
/-- the right operand's runs down the contracted feature axis -/
theorem rhs_feature (j : S2048x1024.Idx) (q : dot_S2048x144_S144x1024_S2048x1024_1_0_0_1_n_n.contr.Idx) :
    (dot_S2048x144_S144x1024_S2048x1024_1_0_0_1_n_n.rhsIdx j q 0).val = (q ⟨0, by decide⟩).val :=
  dot_S2048x144_S144x1024_S2048x1024_1_0_0_1_n_n.rhsIdx_val_of_single rfl j q
/-- and keeps the output's column. -/
theorem rhs_col (j : S2048x1024.Idx) (q : dot_S2048x144_S144x1024_S2048x1024_1_0_0_1_n_n.contr.Idx) :
    (dot_S2048x144_S144x1024_S2048x1024_1_0_0_1_n_n.rhsIdx j q 1).val = (j 1).val := by
  unfold DotDims.rhsIdx
  rw [dif_neg (show ¬(1 : Fin S144x1024.rank) ∈ dot_S2048x144_S144x1024_S2048x1024_1_0_0_1_n_n.rhsBatch by decide),
    dif_pos (show (1 : Fin S144x1024.rank) ∈ dot_S2048x144_S144x1024_S2048x1024_1_0_0_1_n_n.rhsNonContracting by decide)]
  rfl

/-- The body's product into a zero accumulator, re-indexed by the feature `k < 144`: the left operand is read at
    (p, k), the right at (k, q). -/
theorem matmul_entry (x : FVec Ideal S2048x144 .bf16) (w : FVec Ideal S144x1024 .bf16) (p : Fin 2048) (q : Fin 1024) :
    matmul (F := Ideal) dot_S2048x144_S144x1024_S2048x1024_1_0_0_1_n_n none x w (constant S2048x1024 .f32 0x00000000#32) (ix2 p q)
      = ∑ k : Fin 144, x (ix2 p k) * w (ix2 k q) := by
  simp only [matmul]
  rw [Ideal.matmul_constant_zero_apply,
    ← Equiv.sum_comp (contrEquiv1 dot_S2048x144_S144x1024_S2048x1024_1_0_0_1_n_n 144 rfl rfl).symm]
  refine Finset.sum_congr rfl fun k _ => ?_
  have hk := contrEquiv1_symm_val dot_S2048x144_S144x1024_S2048x1024_1_0_0_1_n_n 144 rfl rfl k
  have el : dot_S2048x144_S144x1024_S2048x1024_1_0_0_1_n_n.lhsIdx (ix2 p q)
      ((contrEquiv1 dot_S2048x144_S144x1024_S2048x1024_1_0_0_1_n_n 144 rfl rfl).symm k) = ix2 p k :=
    funext fun a => Fin.ext (by
      match a with
      | ⟨0, _⟩ => exact lhs_row _ _
      | ⟨1, _⟩ => exact (lhs_feature _ _).trans hk)
  have er : dot_S2048x144_S144x1024_S2048x1024_1_0_0_1_n_n.rhsIdx (ix2 p q)
      ((contrEquiv1 dot_S2048x144_S144x1024_S2048x1024_1_0_0_1_n_n 144 rfl rfl).symm k) = ix2 k q :=
    funext fun a => Fin.ext (by
      match a with
      | ⟨0, _⟩ => exact (rhs_feature _ _).trans hk
      | ⟨1, _⟩ => exact rhs_col _ _)
  rw [el, er]

/-- The bias row repeated down the rows: entry (p, q) of the repeated row is entry (0, q) of the row. -/
theorem bias_entry (b : FVec Ideal S1x1024 .f32) (p : Fin 2048) (q : Fin 1024) :
    broadcastTo S2048x1024 b broadcasts_S1x1024_S2048x1024 (ix2 p q) = b (ix2 0 q) :=
  broadcastTo_apply b broadcasts_S1x1024_S2048x1024 (ix2 p q) (ix2 0 q) (fun a => by
    match a with
    | ⟨0, _⟩ => show 0 = if (1 : Nat) = 1 then 0 else _; rw [if_pos rfl]
    | ⟨1, _⟩ => show q.val = if (1024 : Nat) = 1 then 0 else q.val; rw [if_neg (by decide)])

/-- Entry (p, q) of what the body stores: the row of the block against the column of the weights, plus the bias. -/
theorem pay_entry (x : Vec Ideal S2048x144 .bf16) (w : Vec Ideal S144x1024 .bf16) (b : Vec Ideal S1x1024 .f32)
    (p : Fin 2048) (q : Fin 1024) :
    k0_pay1 (F := Ideal) x w b (ix2 p q) = (∑ k : Fin 144, x (ix2 p k) * w (ix2 k q)) + b (ix2 0 q) := by
  unfold k0_pay1
  simp only [shapeCast_self]
  rw [addf_apply, matmul_entry, bias_entry]

end Cert.KernelIdeal.BlockValue

end
-- ==== Proof.RowsAffine.lean ====
/-
  The function both programs compute, once, over literal shapes.

  Every one of the 196608 rows of 144 gathered features is sent through ONE affine map to 1024 outputs:

        out[r, o]  =  Σ_{k < 144} X[r, k] · W[k, o]  +  b[0, o]        (r < 196608, o < 1024),

  the bias held as a 1 × 1024 row.  A row-block of the result depends only on the same row-block of `X`: rows
  2048·t … 2048·t + 2047 of `out` are those rows of `X` against the whole of `W` and `b`, which is what lets a
  grid of 96 independent points compute it.  Nothing here needs finiteness: the formula is a sum of products on the
  extended reals read the same way on both sides, never rearranged across an infinity.
-/
import Idealize.ShloMosaic.PureOps.Ideal
import Idealize.ShloMosaic.Lib.ValueIdx

noncomputable section

open Idealize.ShloMosaic Idealize.ShloMosaic.ValueIdx

namespace Cert.PatchAffine

/-- Rows of features through the affine map: entry (r, o) is row r of `X` against column o of `W`, plus the bias at o. -/
def rowsAffine (X : (⟨2, ![196608, 144]⟩ : Shape).Idx → EReal) (W : (⟨2, ![144, 1024]⟩ : Shape).Idx → EReal)
    (b : (⟨2, ![1, 1024]⟩ : Shape).Idx → EReal) : (⟨2, ![196608, 1024]⟩ : Shape).Idx → EReal :=
  fun i => (∑ k : Fin 144, X (ix2 (n0 := 196608) (i 0) k) * W (ix2 k (n1 := 1024) (i 1))) + b (ix2 (0 : Fin 1) (n1 := 1024) (i 1))

/-- The same at named coordinates. -/
theorem rowsAffine_apply (X : (⟨2, ![196608, 144]⟩ : Shape).Idx → EReal) (W : (⟨2, ![144, 1024]⟩ : Shape).Idx → EReal)
    (b : (⟨2, ![1, 1024]⟩ : Shape).Idx → EReal) (r : Fin 196608) (o : Fin 1024) :
    rowsAffine X W b (ix2 r o) = (∑ k : Fin 144, X (ix2 r k) * W (ix2 k o)) + b (ix2 0 o) := rfl

/-- A 2048-row block read against the whole array: if the block `x` is rows `2048·t …` of `X`, entry (p, q) of the block's
    rows through the map is entry (2048·t + p, q) of the whole result. -/
theorem rowsAffine_block (X : (⟨2, ![196608, 144]⟩ : Shape).Idx → EReal) (W : (⟨2, ![144, 1024]⟩ : Shape).Idx → EReal)
    (b : (⟨2, ![1, 1024]⟩ : Shape).Idx → EReal) (x : (⟨2, ![2048, 144]⟩ : Shape).Idx → EReal)
    (p : Fin 2048) (q : Fin 1024) (r : Fin 196608)
    (hx : ∀ k : Fin 144, x (ix2 p k) = X (ix2 r k)) :
    (∑ k : Fin 144, x (ix2 p k) * W (ix2 k q)) + b (ix2 0 q) = rowsAffine X W b (ix2 r q) := by
  rw [rowsAffine_apply]
  exact congrArg (· + b (ix2 0 q)) (Finset.sum_congr rfl fun k _ => by rw [hx k])

end Cert.PatchAffine

end
-- ==== Proof.Blocks.lean ====
/-
  From the 96 row blocks to the whole array.

  Grid point `t` is handed rows 2048·t … 2048·t + 2047 of the feature array, the whole weight matrix and the whole
  bias row, and writes rows 2048·t … 2048·t + 2047 of the output.  By the body's arithmetic (one row against one column,
  plus the bias) what it writes is exactly that row block of `rowsAffine` of the three arrays as the region finds them.
  The 96 blocks are disjoint and cover all 196608 rows — row r is in the block of point r / 2048 — so after the last
  point the output array is `rowsAffine` of the three arrays, everywhere.
-/
import proofs.«158344_j24103356465172_2_alg».proof.Proof.Gen.KernelIdeal.Frame
import proofs.«158344_j24103356465172_2_alg».proof.Proof.Payload
import proofs.«158344_j24103356465172_2_alg».proof.Proof.RowsAffine
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BlockValue

open Cert.KernelIdeal Cert.KernelIdeal.Gen Cert.PatchAffine

variable (m : (ℓ : Loc nD τ sig) → Buf (Elt Ideal) ℓ)

theorem offsets_zero : (![0, 0] : Fin 2 → Nat) = fun _ => 0 := funext fun a => by fin_cases a <;> rfl

/-- The output array after the region: the gathered feature rows, as the region finds them, through the affine map of
    the weights and the bias row as the region finds them. -/
abbrev result (c : Dev nD) : S196608x1024.Idx → EReal :=
  rowsAffine (V m c main_v15 : S196608x144.Idx → Elt Ideal .bf16) (V m c main_v16 : S144x1024.Idx → Elt Ideal .bf16)
    (V m c main_v17 : S1x1024.Idx → Elt Ideal .f32)

/-- One entry of what the body stores, against the whole arrays: if the loaded weights and bias ARE the arrays, and row
    (j 0) of the loaded feature block is row (i 0) of the feature array, then entry j of the stored block is entry i of
    the result whenever the two have the same column. -/
theorem block_entry (X : S196608x144.Idx → EReal) (W : S144x1024.Idx → EReal) (b : S1x1024.Idx → EReal)
    (x : Vec Ideal S2048x144 .bf16) (w : Vec Ideal S144x1024 .bf16) (bb : Vec Ideal S1x1024 .f32)
    (hw : w = W) (hb : bb = b) (j : S2048x1024.Idx) (i : S196608x1024.Idx)
    (hx : ∀ k : Fin 144, x (ix2 (j 0) k) = X (ix2 (i 0) k)) (hcol : (i 1).val = (j 1).val) :
    k0_pay1 (F := Ideal) x w bb j = rowsAffine X W b i := by
  obtain ⟨p, q, rfl⟩ : ∃ (p : Fin 2048) (q : Fin 1024), j = ix2 p q := ⟨j 0, j 1, eq_ix2 j⟩
  obtain ⟨r, o, rfl⟩ : ∃ (r : Fin 196608) (o : Fin 1024), i = ix2 r o := ⟨i 0, i 1, eq_ix2 i⟩
  obtain rfl : o = q := Fin.ext hcol
  subst hw hb
  rw [pay_entry]
  exact rowsAffine_block X w bb x p o r hx

/-- The printed index maps, decided once over the 96 points: the feature window and the output window move down the rows
    with the point, the weights and the bias stay. -/
theorem index_maps : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block is some point's. -/
theorem point_of_block : ∀ q : Fin 96, ∃ t : Fin cfg0.N, win0_3.index t = ![q.val, 0] :=
  (by decide +kernel : ∀ q : Fin 96, ∃ t : Fin grid0.N, win0_3.index t = ![q.val, 0])

/-- WHAT POINT `t` WRITES BACK is row block `t` of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero offsets_zero]
  simp only [View.ld_unit_zero (S := S2048x144) offsets_zero, View.ld_unit_zero (S := S144x1024) offsets_zero,
    View.ld_unit_zero (S := S1x1024) offsets_zero]
  obtain ⟨e00, e01, e10, e11, e20, e21, e31⟩ := index_maps t
  funext j
  refine block_entry (V m c main_v15) (V m c main_v16) (V m c main_v17) (iblk m c 0 t) (iblk m c 1 t) (iblk m c 2 t)
    ?_ ?_ j (((cfg0.win 3).blk t).view.emb j) ?_ ?_
  · -- the weights' one block is the whole matrix
    funext y
    show V m c main_v16 (((cfg0.win 1).blk t).view.emb y) = V m c main_v16 y
    refine congrArg _ (funext fun a => Fin.ext ?_)
    match a with
    | ⟨0, _⟩ => show win0_1.index t (0 : Fin 2) * 144 + 1 * (y 0).val = (y 0).val; omega
    | ⟨1, _⟩ => show win0_1.index t (1 : Fin 2) * 1024 + 1 * (y 1).val = (y 1).val; omega
  · -- the bias' one block is the whole row
    funext y
    show V m c main_v17 (((cfg0.win 2).blk t).view.emb y) = V m c main_v17 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 1024 + 1 * (y 1).val = (y 1).val; omega
  · -- the feature block's rows are the output block's rows
    intro k
    show V m c main_v15 (((cfg0.win 0).blk t).view.emb (ix2 (j 0) k)) = V m c main_v15 (ix2 ((((cfg0.win 3).blk t).view.emb j) 0) k)
    refine congrArg _ (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 144 + 1 * k.val = k.val; omega
  · show win0_3.index t (1 : Fin 2) * 1024 + 1 * (j 1).val = (j 1).val; omega

/-- An index of the output array is in point `t`'s block iff each coordinate is in the block's range on its axis. -/
theorem mem_blk (t : Fin cfg0.N) (i : S196608x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v18).slice (win0_3.rect t)).set ↔ _
  rw [View.set_slice_whole, Rect.mem_set_unit]
  exact Iff.rfl

/-- Row r, column o lies in the block of the point whose block index is r / 2048. -/
theorem covered (i : S196608x1024.Idx) :
    ∃ t : Fin cfg0.N, (cfg0.win 3).flush t = true ∧ i ∈ ((cfg0.win 3).blk t).view.set := by
  have hi0 : (i 0).val < 196608 := (i 0).isLt
  have hi1 : (i 1).val < 1024 := (i 1).isLt
  obtain ⟨t, ht⟩ := point_of_block ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- THE OUTPUT ARRAY after the region is the result, everywhere. -/
theorem final (c : Dev nD) : (dats m 0 c).arrAt 3 cfg0.N = result m c :=
  (dats m 0 c).arrAt_eq_of_cover 3 (result m c) (fun t _ => flushed_eq m c t) (covered)

end Cert.KernelIdeal.BlockValue

end
-- ==== Proof.KernelValue.lean ====
/-
  The kernel's whole program, read as a value.

  Before the region the host gathers the features — the embedding table's rows chosen by the variable indices, then for
  every grid cell its nine neighbours' 16 channels, negative indices counted from the end — and lays them out as
  196608 rows of 144; it passes the weights through a change of float format (the identity on extended reals) and lays
  the bias out as a 1 × 1024 row.  The region leaves `rowsAffine` of these three (Blocks).  After the region the host
  lays the 196608 × 1024 result out as 1 × 4 × 4 × 196608 × 64.  Both layouts keep row-major order.
-/
import proofs.«158344_j24103356465172_2_alg».proof.Proof.Blocks
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.HostValue

open Cert.KernelIdeal Cert.KernelIdeal.Gen Cert.KernelIdeal.BlockValue Cert.PatchAffine

/-- The gathered features as a function of the embedding table `x0`, the variable indices `x1` and the adjacency `x2`:
    an index below zero has the axis' length added (8 variables, 12288 cells), then the table's rows are chosen by
    variable, then each cell's nine neighbours by adjacency. -/
def gathered (x0 : FVec Ideal S8x4x12288x16 .f32) (x1 : IVec S1x4 32) (x2 : IVec S12288x9 32) :
    FVec Ideal S1x4x4x12288x9x16 .bf16 :=
  Host.gather gather_S1x4x4x12288x16_S12288x9x1_S1x4x4x12288x9x16_0125_3_n_n_3_2_144116
    (Host.gather gather_S8x4x12288x16_S1x4x1_S1x4x4x12288x16_234_0_n_n_0_2_141228816
      (truncf (F := Ideal) .bf16 x0 bitsLt_bf16_f32)
      (broadcastInDim S1x4x1 ![0, 1] bcast_S1x4_S1x4x1_0_1
        (select (cmpi .slt x1 (broadcastInDim S1x4 ![] bcast_S_S1x4 (constantI S_ 32 0#32)))
          (addi x1 (broadcastInDim S1x4 ![] bcast_S_S1x4 (constantI S_ 32 8#32))) x1)))
    (broadcastInDim S12288x9x1 ![0, 1] bcast_S12288x9_S12288x9x1_0_1
      (select (cmpi .slt x2 (broadcastInDim S12288x9 ![] bcast_S_S12288x9 (constantI S_ 32 0#32)))
        (addi x2 (broadcastInDim S12288x9 ![] bcast_S_S12288x9 (constantI S_ 32 12288#32))) x2))

/-- The program's result as a function of its five arguments: the gathered features as 196608 rows of 144, through the
    affine map of the weights and the bias row, laid out as 1 × 4 × 4 × 196608 × 64. -/
def value (x0 : FVec Ideal S8x4x12288x16 .f32) (x1 : IVec S1x4 32) (x2 : IVec S12288x9 32)
    (x3 : FVec Ideal S144x1024 .f32) (x4 : FVec Ideal S1024 .f32) : FVec Ideal S1x4x4x196608x64 .f32 :=
  shapeCast S1x4x4x196608x64
    (rowsAffine (shapeCast S196608x144 (gathered x0 x1 x2) shapeCasts_S1x4x4x12288x9x16_S196608x144) x3
      (shapeCast S1x1024 x4 shapeCasts_S1024_S1x1024))
    shapeCasts_S196608x1024_S1x4x4x196608x64

variable (m : (ℓ : Loc nD τ sig) → Buf (Elt Ideal) ℓ) (ρ : Dev nD → PrngReg)

set_option maxHeartbeats 2000000 in
/-- The feature array the region finds: the gathered features of the arguments, as rows. -/
theorem features_found (c : Dev nD) :
    (V m c main_v15 : S196608x144.Idx → Elt Ideal .bf16)
      = shapeCast S196608x144 (gathered (m ((c : Thread nD τ).loc main_arg0)) (m ((c : Thread nD τ).loc main_arg1)) (m ((c : Thread nD τ).loc main_arg2)))
          shapeCasts_S1x4x4x12288x9x16_S196608x144 := by
  show StableHlo.after hostOps0 (fun b => m (c, b)) (Proc.devRef .tc main_v15) = _
  after_results
  rfl

set_option maxHeartbeats 2000000 in
/-- The weights the region finds are the argument (a change of float format is the identity). -/
theorem weights_found (c : Dev nD) :
    (V m c main_v16 : S144x1024.Idx → EReal) = (m ((c : Thread nD τ).loc main_arg3) : S144x1024.Idx → EReal) := by
  show StableHlo.after hostOps0 (fun b => m (c, b)) (Proc.devRef .tc main_v16) = _
  after_results
  rfl

set_option maxHeartbeats 2000000 in
/-- The bias row the region finds is the argument laid out as one row. -/
theorem bias_found (c : Dev nD) :
    (V m c main_v17 : S1x1024.Idx → Elt Ideal .f32) = shapeCast S1x1024 (m ((c : Thread nD τ).loc main_arg4)) shapeCasts_S1024_S1x1024 := by
  show StableHlo.after hostOps0 (fun b => m (c, b)) (Proc.devRef .tc main_v17) = _
  after_results
  rfl

/-- So the output array after the region is the affine map of the arguments' gathered rows. -/
theorem result_eq (c : Dev nD) :
    result m c = rowsAffine (shapeCast S196608x144 (gathered (m ((c : Thread nD τ).loc main_arg0)) (m ((c : Thread nD τ).loc main_arg1)) (m ((c : Thread nD τ).loc main_arg2))) shapeCasts_S1x4x4x12288x9x16_S196608x144)
      (m ((c : Thread nD τ).loc main_arg3)) (shapeCast S1x1024 (m ((c : Thread nD τ).loc main_arg4)) shapeCasts_S1024_S1x1024) := by
  unfold result
  rw [features_found m c, weights_found m c, bias_found m c]

set_option maxHeartbeats 2000000 in
/-- The program's result buffer after the host's last layout operation. -/
theorem tail_found (c : Dev nD) :
    (Pipeline.afterTail₀ cfgs (dats m) 0 (V0 m) [hostOps1] c main_v19 : S1x4x4x196608x64.Idx → Elt Ideal .f32)
      = value (m ((c : Thread nD τ).loc main_arg0)) (m ((c : Thread nD τ).loc main_arg1)) (m ((c : Thread nD τ).loc main_arg2))
          (m ((c : Thread nD τ).loc main_arg3)) (m ((c : Thread nD τ).loc main_arg4)) := by
  have harr : Pipeline.withArrays (cfgs 0).spec c (V0 m c) (fun w => (dats m 0 c).arrAt w (cfgs 0).N) (Proc.devRef .tc main_v18)
      = result m c :=
    (Pipeline.withArrays_arr spec0 launch0.win.arr_inj c _ _ 3).trans (final m c)
  unfold Pipeline.afterTail₀
  show StableHlo.after hostOps1 _ (Proc.devRef .tc main_v19) = _
  after_results
  rw [harr, result_eq m c]
  rfl

/-- THE KERNEL'S RUN, read: every weakly fair execution ends with the result buffer at `value` of the arguments and the
    arguments unchanged. -/
theorem run : θ_run defs (onTc (τ := τ) (main (F := Ideal))) ⟨m, fun _ => 0, ρ⟩ fun r => ∀ c : Dev nD,
      r.2.mem ((c.tc : Thread nD τ).loc main_v19)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (tail_found m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostValue

end
-- ==== Proof.LibReshape.lean ====
/-
  Two reshapes of ONE array, compared without naming an index of the array itself.

  A reshape reads its operand at the index with the same row-major position.  So two reshapes of the same
  array `x`, to shapes `t` and `u`, agree wherever the index into `t` and the index into `u` have the same
  row-major position: both read `x` at the one index of `x` with that position.  The position of an index of a
  literal shape is a sum of products of its coordinates, so the hypothesis is linear arithmetic.
-/
import Idealize.ShloMosaic.Lib.Pipeline.Value

namespace Idealize.ShloMosaic

/-- Reshapes of one array to two shapes agree at indices of equal row-major position. -/
theorem shapeCast_eq_shapeCast_of_rowMajor {s t u : Shape} {α : Type} (x : s.Idx → α)
    (ht : s.ShapeCasts t) (hu : s.ShapeCasts u) (j : t.Idx) (k : u.Idx)
    (e : (t.rowMajor j).val = (u.rowMajor k).val) :
    shapeCast t x ht j = shapeCast u x hu k := by
  unfold shapeCast
  refine congrArg x (Shape.reshapeEquiv_eq_of_rowMajor ht ?_)
  rw [Shape.rowMajor_reshapeEquiv hu k]
  exact e.symm

end Idealize.ShloMosaic
-- ==== Proof.Bridge.lean ====
/-
  The two programs compute one function of the arguments.

  Fix an entry of the 1 × 4 × 4 × 196608 × 64 result and let n be its row-major position.  Both programs reach it
  through a layout of a matrix with 1024 columns, so both read that matrix at row n / 1024 and column n % 1024 — the kernel's
  matrix has its 196608 rows on one axis, the reference's has them on four (1 × 4 × 4 × 12288), and n / 1024 splits into
  those four coordinates.  There both hold the same thing: the sum over the 144 features k of the gathered feature at
  row-major position (n / 1024) · 144 + k of the gathered array — read by the kernel through its 196608 × 144 layout and by
  the reference through its 1 × 4 × 4 × 12288 × 144 layout — times the weight at (k, n % 1024), plus the bias at n % 1024.
  The gathers themselves are the same operations on the same indices in both programs and are never opened; the kernel's
  changes of float format are the identity; its zero accumulator adds nothing.  No finiteness is used.
-/
import proofs.«158344_j24103356465172_2_alg».proof.Proof.KernelValue
import proofs.«158344_j24103356465172_2_alg».proof.Proof.LibReshape
import proofs.«158344_j24103356465172_2_alg».proof.Proof.Gen.ReferenceIdeal.Read

noncomputable section

open Idealize.ShloMosaic Idealize.ShloMosaic.TcCoe Idealize.ShloMosaic.ValueIdx

namespace Cert.Bridge

open Cert.PatchAffine

/-- The row-major position of an entry of the result. -/
def pos (i : Cert.KernelIdeal.S1x4x4x196608x64.Idx) : Nat :=
  ((((i 0).val * 4 + (i 1).val) * 4 + (i 2).val) * 196608 + (i 3).val) * 64 + (i 4).val

theorem pos_lt (i : Cert.KernelIdeal.S1x4x4x196608x64.Idx) : pos i < 201326592 := by
  have h0 : (i 0).val < 1 := (i 0).isLt
  have h1 : (i 1).val < 4 := (i 1).isLt
  have h2 : (i 2).val < 4 := (i 2).isLt
  have h3 : (i 3).val < 196608 := (i 3).isLt
  have h4 : (i 4).val < 64 := (i 4).isLt
  unfold pos
  omega

/-- Both programs gather the same features: the same two gathers on the same normalised indices (the kernel's change of
    float format before them is the identity). -/
theorem gathered_eq (x0 : FVec Ideal Cert.KernelIdeal.S8x4x12288x16 .f32) (x1 : IVec Cert.KernelIdeal.S1x4 32)
    (x2 : IVec Cert.KernelIdeal.S12288x9 32) :
    Cert.KernelIdeal.HostValue.gathered x0 x1 x2 = Cert.ReferenceIdeal.Read.val_main_v13 (F := Ideal) x0 x1 x2 := rfl

/-- THE BRIDGE: the kernel's result, as a function of the five arguments, is the reference's. -/
theorem value_eq (x0 : FVec Ideal Cert.KernelIdeal.S8x4x12288x16 .f32) (x1 : IVec Cert.KernelIdeal.S1x4 32)
    (x2 : IVec Cert.KernelIdeal.S12288x9 32) (x3 : FVec Ideal Cert.KernelIdeal.S144x1024 .f32)
    (x4 : FVec Ideal Cert.KernelIdeal.S1024 .f32) :
    Cert.KernelIdeal.HostValue.value x0 x1 x2 x3 x4 = Cert.ReferenceIdeal.Read.val_main_v19 (F := Ideal) x0 x1 x2 x3 x4 := by
  funext i
  have hn := pos_lt i
  -- the reference's side, one operation at a time
  rw [Cert.ReferenceIdeal.Read.val_main_v19_apply, Cert.ReferenceIdeal.Read.val_main_v18_apply,
    Cert.ReferenceIdeal.Read.val_main_v15_apply, Cert.ReferenceIdeal.Read.val_main_v17_apply,
    Cert.ReferenceIdeal.Read.val_main_v16_apply]
  -- the kernel's side: the last layout, then the affine map at (n / 1024, n % 1024)
  unfold Cert.KernelIdeal.HostValue.value
  rw [shapeCast_apply _ _ i (ix2 (⟨pos i / 1024, by omega⟩ : Fin 196608) (⟨pos i % 1024, by omega⟩ : Fin 1024)) (by
      rw [Shape.rowMajor_val_two, Shape.rowMajor_val_five]
      show pos i / 1024 * 1024 + pos i % 1024 = pos i
      omega),
    rowsAffine_apply]
  show _ + _ = _ + _
  refine congrArg₂ (· + ·) (Finset.sum_congr rfl fun k _ => congrArg₂ (· * ·) ?_ ?_) ?_
  · -- the gathered feature: two layouts of one array, read at one row-major position
    unfold Cert.ReferenceIdeal.Read.val_main_v14
    rw [← gathered_eq]
    refine shapeCast_eq_shapeCast_of_rowMajor _ _ _ _ _ ?_
    rw [Shape.rowMajor_val_two, Shape.rowMajor_val_five]
    show pos i / 1024 * 144 + k.val
      = ((((0 * 4 + pos i / 50331648 % 4) * 4 + pos i / 12582912 % 4) * 12288 + pos i / 1024 % 12288) * 144 + k.val)
    omega
  · -- the weight at (k, n % 1024)
    refine congrArg x3 (funext fun a => Fin.ext ?_)
    match a with
    | ⟨0, _⟩ => rfl
    | ⟨1, _⟩ => rfl
  · -- the bias at n % 1024
    refine shapeCast_apply x4 _ _ _ ?_
    rw [Shape.rowMajor_val_one, Shape.rowMajor_val_two]
    show pos i % 1024 = 0 * 1024 + pos i % 1024
    omega

end Cert.Bridge

end
-- ==== Proof.lean ====
/-
  The patch MLP of a grid-neighbourhood embedder: for each of 4 variables, 4 time steps and 12288 grid cells, the 16
  channels of the cell's nine neighbours (144 features, looked up through the variable indices and the adjacency table)
  are sent through one affine map to 1024 outputs, and the result is laid out as 1 × 4 × 4 × 196608 × 64.

  The kernel does the two lookups on the host (after a change of float format, the identity on extended reals), treats
  the 4 · 4 · 12288 neighbourhoods as 196608 rows, and computes the affine map in a grid of 96 independent blocks of 2048
  rows, each a matrix product into a zero accumulator plus the bias row.  The reference does the same lookups, one
  contraction over the feature axis of the five-axis array, and adds the bias.

  Over the extended reals these are one function of the arguments: both lay a 1024-column matrix out in row-major order,
  and at every row and column both hold the same sum of 144 products plus the same bias entry (Bridge).  The precondition
  is not needed for the equality: no term is moved across a sum or cancelled.

  The modules: RowsAffine (the function, over literal shapes) · Payload (one entry of what the body stores) · Blocks (what a
  point writes back is a row block of the function; the 96 blocks cover the array) · KernelValue (the host operations before
  and after the region; the kernel's run with its result named) · LibReshape (two layouts of one array agree at equal
  row-major positions) · Bridge (the kernel's function of the arguments is the reference's).
-/
import proofs.«158344_j24103356465172_2_alg».proof.Defs
import proofs.«158344_j24103356465172_2_alg».proof.Proof.Gen.Kernel
import proofs.«158344_j24103356465172_2_alg».proof.Proof.Gen.Kernel.Skeleton
import proofs.«158344_j24103356465172_2_alg».proof.Proof.Gen.Kernel.Launch
import proofs.«158344_j24103356465172_2_alg».proof.Proof.Gen.Kernel.Points
import proofs.«158344_j24103356465172_2_alg».proof.Proof.Gen.Kernel.Frame
import proofs.«158344_j24103356465172_2_alg».proof.Proof.Gen.KernelIdeal
import proofs.«158344_j24103356465172_2_alg».proof.Proof.Gen.KernelIdeal.Skeleton
import proofs.«158344_j24103356465172_2_alg».proof.Proof.Gen.KernelIdeal.Launch
import proofs.«158344_j24103356465172_2_alg».proof.Proof.Gen.KernelIdeal.Points
import proofs.«158344_j24103356465172_2_alg».proof.Proof.Gen.KernelIdeal.Frame
import proofs.«158344_j24103356465172_2_alg».proof.Proof.Gen.ReferenceIdeal
import proofs.«158344_j24103356465172_2_alg».proof.Proof.Gen.Pre_finite_inputs
import proofs.«158344_j24103356465172_2_alg».proof.Proof.Gen.ReferenceIdeal.Run
import proofs.«158344_j24103356465172_2_alg».proof.Proof.Gen.ReferenceIdeal.Read
import proofs.«158344_j24103356465172_2_alg».proof.Proof.KernelValue
import proofs.«158344_j24103356465172_2_alg».proof.Proof.Bridge
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at ONE function of the arguments: the
    kernel's run names it (`HostValue.value`), the reference's run ends at its own composed term, and the two are equal
    (`Bridge.value_eq`). -/
theorem algebraic : Cert.algebraic_KernelIdeal_ReferenceIdeal := by
  intro m ρ m' ρ' _ hagree
  refine ⟨fun c => Cert.KernelIdeal.HostValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v19_eq]
  exact (Cert.Bridge.value_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
